-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6000x32x3 : Shape := ⟨3, ![6000, 32, 3]⟩
abbrev S3x512 : Shape := ⟨2, ![3, 512]⟩
abbrev S512 : Shape := ⟨1, ![512]⟩
abbrev S3x512x512 : Shape := ⟨3, ![3, 512, 512]⟩
abbrev S512x4 : Shape := ⟨2, ![512, 4]⟩
abbrev S4 : Shape := ⟨1, ![4]⟩
abbrev S192000 : Shape := ⟨1, ![192000]⟩
abbrev S_ : Shape := ⟨0, ![]⟩

class Facts : Prop where
  bcast_S_S6000x32x3 : S_.BroadcastsInDim S6000x32x3 (![] : Fin 0 → Fin S6000x32x3.rank)
  reducesTo_S6000x32x3_S_d0_1_2 : S6000x32x3.ReducesTo [0, 1, 2] S_
  h_S_ : 0 < S_.numel
  bcast_S_S3x512 : S_.BroadcastsInDim S3x512 (![] : Fin 0 → Fin S3x512.rank)
  reducesTo_S3x512_S_d0_1 : S3x512.ReducesTo [0, 1] S_
  bcast_S_S512 : S_.BroadcastsInDim S512 (![] : Fin 0 → Fin S512.rank)
  reducesTo_S512_S_d0 : S512.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S512x4 : S_.BroadcastsInDim S512x4 (![] : Fin 0 → Fin S512x4.rank)
  reducesTo_S512x4_S_d0_1 : S512x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S3x512 .f32) (main_arg5 : FVec F S512x4 .f32) (main_arg6 : FVec F S4 .f32) (main_v13 : IVec S_ 1) (main_v16 : IVec S3x512x512 1) : IVec S_ 1 :=
  let main_c_5 : IVec S_ 1 := constantI S_ 1 1#1
  let main_v17 : IVec S_ 1 := (fun x v => Host.reduce IntOp.andi x v reducesTo_S3x512x512_S_d0_1_2 h_S_) main_v16 main_c_5
  let main_v18 : IVec S_ 1 := andi main_v13 main_v17
  let main_v19 : FVec F S3x512 .f32 := Host.absf main_arg4
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S512x4 .f32 := Host.absf main_arg5
  let main_cst_8 : FVec F S_ .f32 := constant S_ .f32 0x7F800000#32
  let main_v25 : FVec F S512x4 .f32 := broadcastInDim S512x4 ![] bcast_S_S512x4 main_cst_8
  let main_v26 : IVec S512x4 1 := cmpf .olt main_v24 main_v25
  let main_c_9 : IVec S_ 1 := constantI S_ 1 1#1
  let main_v27 : IVec S_ 1 := (fun x v => Host.reduce IntOp.andi x v reducesTo_S512x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S6000x32x3 .f32) (main_arg1 : FVec F S3x512 .f32) (main_arg2 : FVec F S512 .f32) (main_arg3 : FVec F S3x512x512 .f32) (main_arg4 : FVec F S3x512 .f32) (main_arg5 : FVec F S512x4 .f32) (main_arg6 : FVec F S4 .f32) (main_arg7 : IVec S192000 32) (main_arg8 : IVec S192000 32) : IVec S_ 1 :=
  let main_v0 : FVec F S6000x32x3 .f32 := Host.absf main_arg0
  let main_cst : FVec F S_ .f32 := constant S_ .f32 0x7F800000#32
  let main_v1 : FVec F S6000x32x3 .f32 := broadcastInDim S6000x32x3 ![] bcast_S_S6000x32x3 main_cst
  let main_v2 : IVec S6000x32x3 1 := cmpf .olt main_v0 main_v1
  let main_c : IVec S_ 1 := constantI S_ 1 1#1
  let main_v3 : IVec S_ 1 := (fun x v => Host.reduce IntOp.andi x v reducesTo_S6000x32x3_S_d0_1_2 h_S_) main_v2 main_c
  let main_v4 : FVec F S3x512 .f32 := Host.absf main_arg1
  let main_cst_0 : FVec F S_ .f32 := constant S_ .f32 0x7F800000#32
  let main_v5 : FVec F S3x512 .f32 := broadcastInDim S3x512 ![] bcast_S_S3x512 main_cst_0
  let main_v6 : IVec S3x512 1 := cmpf .olt main_v4 main_v5
  let main_c_1 : IVec S_ 1 := constantI S_ 1 1#1
  let main_v7 : IVec S_ 1 := (fun x v => Host.reduce IntOp.andi x v reducesTo_S3x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S3x512x512 .f32 := Host.absf main_arg3
  let main_cst_4 : FVec F S_ .f32 := constant S_ .f32 0x7F800000#32
  let main_v15 : FVec F S3x512x512 .f32 := broadcastInDim S3x512x512 ![] bcast_S_S3x512x512 main_cst_4
  let main_v16 : IVec S3x512x512 1 := cmpf .olt main_v14 main_v15
  fn_part1 (F := F) main_arg4 main_arg5 main_arg6 main_v13 main_v16
-- ==== Kernel.lean ====
abbrev S6000x32x3 : Shape := ⟨3, ![6000, 32, 3]⟩
abbrev S3x512 : Shape := ⟨2, ![3, 512]⟩
abbrev S512 : Shape := ⟨1, ![512]⟩
abbrev S3x512x512 : Shape := ⟨3, ![3, 512, 512]⟩
abbrev S512x4 : Shape := ⟨2, ![512, 4]⟩
abbrev S4 : Shape := ⟨1, ![4]⟩
abbrev S192000 : Shape := ⟨1, ![192000]⟩
abbrev S192000x3 : Shape := ⟨2, ![192000, 3]⟩
abbrev S192000x4 : Shape := ⟨2, ![192000, 4]⟩
abbrev S3000x3 : Shape := ⟨2, ![3000, 3]⟩
abbrev S3000x4 : Shape := ⟨2, ![3000, 4]⟩
abbrev S3000x512 : Shape := ⟨2, ![3000, 512]⟩
abbrev S1x512 : Shape := ⟨2, ![1, 512]⟩
abbrev S1x512x512 : Shape := ⟨3, ![1, 512, 512]⟩
abbrev S512x512 : Shape := ⟨2, ![512, 512]⟩
abbrev S1x4 : Shape := ⟨2, ![1, 4]⟩
abbrev S192000x2x2 : Shape := ⟨3, ![192000, 2, 2]⟩
abbrev S_ : Shape := ⟨0, ![]⟩
abbrev S6000x2x6000x2 : Shape := ⟨4, ![6000, 2, 6000, 2]⟩
abbrev S192000x1 : Shape := ⟨2, ![192000, 1]⟩
abbrev S192000x2 : Shape := ⟨2, ![192000, 2]⟩
abbrev S12000x12000 : Shape := ⟨2, ![12000, 12000]⟩

abbrev nBuf : Space → Nat
  | .hbm => 33
  | .vmem => 10
  | .smem => 0
  | _ => 0

abbrev bufTy : (tb : Table) → Fin (tcTables nBuf tb) → BufTy
  | .hbm, ⟨0, _⟩ => ⟨S6000x32x3, .f32⟩
  | .hbm, ⟨1, _⟩ => ⟨S3x512, .f32⟩
  | .hbm, ⟨2, _⟩ => ⟨S512, .f32⟩
  | .hbm, ⟨3, _⟩ => ⟨S3x512x512, .f32⟩
  | .hbm, ⟨4, _⟩ => ⟨S3x512, .f32⟩
  | .hbm, ⟨5, _⟩ => ⟨S512x4, .f32⟩
  | .hbm, ⟨6, _⟩ => ⟨S4, .f32⟩
  | .hbm, ⟨7, _⟩ => ⟨S192000, .i32⟩
  | .hbm, ⟨8, _⟩ => ⟨S192000, .i32⟩
  | .hbm, ⟨9, _⟩ => ⟨S192000x3, .f32⟩
  | .hbm, ⟨10, _⟩ => ⟨S192000x4, .f32⟩
  | .hbm, ⟨11, _⟩ => ⟨S192000x2x2, .f32⟩
  | .hbm, ⟨12, _⟩ => ⟨S_, .f32⟩
  | .hbm, ⟨13, _⟩ => ⟨S6000x2x6000x2, .f32⟩
  | .hbm, ⟨14, _⟩ => ⟨S_, .i32⟩
  | .hbm, ⟨15, _⟩ => ⟨S192000, .i32⟩
  | .hbm, ⟨16, _⟩ => ⟨S192000, .i1⟩
  | .hbm, ⟨17, _⟩ => ⟨S_, .i32⟩
  | .hbm, ⟨18, _⟩ => ⟨S192000, .i32⟩
  | .hbm, ⟨19, _⟩ => ⟨S192000, .i32⟩
  | .hbm, ⟨20, _⟩ => ⟨S192000, .i32⟩
  | .hbm, ⟨21, _⟩ => ⟨S_, .i32⟩
  | .hbm, ⟨22, _⟩ => ⟨S192000, .i32⟩
  | .hbm, ⟨23, _⟩ => ⟨S192000, .i1⟩
  | .hbm, ⟨24, _⟩ => ⟨S_, .i32⟩
  | .hbm, ⟨25, _⟩ => ⟨S192000, .i32⟩
  | .hbm, ⟨26, _⟩ => ⟨S192000, .i32⟩
  | .hbm, ⟨27, _⟩ => ⟨S192000, .i32⟩
  | .hbm, ⟨28, _⟩ => ⟨S192000x1, .i32⟩
  | .hbm, ⟨29, _⟩ => ⟨S192000x1, .i32⟩
  | .hbm, ⟨30, _⟩ => ⟨S192000x2, .i32⟩
  | .hbm, ⟨31, _⟩ => ⟨S6000x2x6000x2, .f32⟩
  | .hbm, ⟨32, _⟩ => ⟨S12000x12000, .f32⟩
  | .local _ .vmem, ⟨0, _⟩ => ⟨S3000x3, .f32⟩
  | .local _ .vmem, ⟨1, _⟩ => ⟨S3000x3, .f32⟩
  | .local _ .vmem, ⟨2, _⟩ => ⟨S3x512, .f32⟩
  | .local _ .vmem, ⟨3, _⟩ => ⟨S512, .f32⟩
  | .local _ .vmem, ⟨4, _⟩ => ⟨S3x512x512, .f32⟩
  | .local _ .vmem, ⟨5, _⟩ => ⟨S3x512, .f32⟩
  | .local _ .vmem, ⟨6, _⟩ => ⟨S512x4, .f32⟩
  | .local _ .vmem, ⟨7, _⟩ => ⟨S4, .f32⟩
  | .local _ .vmem, ⟨8, _⟩ => ⟨S3000x4, .f32⟩
  | .local _ .vmem, ⟨9, _⟩ => ⟨S3000x4, .f32⟩
  | _, _ => ⟨S6000x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S6000x32x3_S192000x3 : S6000x32x3.ShapeCasts S192000x3
  inb_S3000x3_S3000x3_0_0 : ∀ a, (![0, 0] : Fin 2 → Nat) a + S3000x3.size a ≤ S3000x3.size a
  h_S3000x3 : 0 < S3000x3.numel
  shapeCasts_S3000x3_S3000x3 : S3000x3.ShapeCasts S3000x3
  bitsLt_bf16_f32 : FTy.bits .bf16 < FTy.bits .f32
  inb_S3x512_S3x512_0_0 : ∀ a, (![0, 0] : Fin 2 → Nat) a + S3x512.size a ≤ S3x512.size a
  h_S3x512 : 0 < S3x512.numel
  inb_S512_S512_0 : ∀ a, (![0] : Fin 1 → Nat) a + S512.size a ≤ S512.size a
  h_S512 : 0 < S512.numel
  shapeCasts_S512_S1x512 : S512.ShapeCasts S1x512
  broadcasts_S1x512_S3000x512 : S1x512.Broadcasts S3000x512
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  inb_S3x512_S1x512_0_0 : ∀ a, (![0, 0] : Fin 2 → Nat) a + S1x512.size a ≤ S3x512.size a
  h_S1x512 : 0 < S1x512.numel
  shapeCasts_S1x512_S512 : S1x512.ShapeCasts S512
  inb_S3x512x512_S1x512x512_1_0_0 : ∀ a, (![1, 0, 0] : Fin 3 → Nat) a + S1x512x512.size a ≤ S3x512x512.size a
  inb_S3x512_S1x512_1_0 : ∀ a, (![1, 0] : Fin 2 → Nat) a + S1x512.size a ≤ S3x512.size a
  inb_S3x512x512_S1x512x512_2_0_0 : ∀ a, (![2, 0, 0] : Fin 3 → Nat) a + S1x512x512.size a ≤ S3x512x512.size a
  inb_S3x512_S1x512_2_0 : ∀ a, (![2, 0] : Fin 2 → Nat) a + S1x512.size a ≤ S3x512.size a
  inb_S512x4_S512x4_0_0 : ∀ a, (![0, 0] : Fin 2 → Nat) a + S512x4.size a ≤ S512x4.size a
  h_S512x4 : 0 < S512x4.numel
  inb_S4_S4_0 : ∀ a, (![0] : Fin 1 → Nat) a + S4.size a ≤ S4.size a
  h_S4 : 0 < S4.numel
  shapeCasts_S4_S1x4 : S4.ShapeCasts S1x4
  broadcasts_S1x4_S3000x4 : S1x4.Broadcasts S3000x4
  inb_S3000x4_S3000x4_0_0 : ∀ a, (![0, 0] : Fin 2 → Nat) a + S3000x4.size a ≤ S3000x4.size a
  h_S3000x4 : 0 < S3000x4.numel
  shapeCasts_S192000x4_S192000x2x2 : S192000x4.ShapeCasts S192000x2x2
  bcast_S_S6000x2x6000x2 : S_.BroadcastsInDim S6000x2x6000x2 (![] : Fin 0 → Fin S6000x2x6000x2.rank)
  bcast_S_S192000 : S_.BroadcastsInDim S192000 (![] : Fin 0 → Fin S192000.rank)
  bcast_S192000_S192000x1_0 : S192000.BroadcastsInDim S192000x1 (![0] : Fin 1 → Fin S192000x1.rank)
  concatenates_S192000x1_S192000x1_S192000x2_d1 : Shape.Concatenates [S192000x1, S192000x1] S192000x2 1
  shapeCasts_S6000x2x6000x2_S12000x12000 : S6000x2x6000x2.ShapeCasts S12000x12000
  dot_S3000x3_S3x512_S3000x512_1_0_0_1_n_n_wf : DotDims.WF S3000x3 S3x512 S3000x512 [1] [0] [0] [1] [] []
  dot_S3000x512_S512x512_S3000x512_1_0_0_1_n_n_wf : DotDims.WF S3000x512 S512x512 S3000x512 [1] [0] [0] [1] [] []
  dot_S3000x512_S512x4_S3000x4_1_0_0_1_n_n_wf : DotDims.WF S3000x512 S512x4 S3000x4 [1] [0] [0] [1] [] []
  scatter_S6000x2x6000x2_S192000x2_S192000x2x2_12_02_02_1_wf : ScatterDims.WF S6000x2x6000x2 S192000x2 S192000x2x2 [1, 2] [0, 2] [0, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x3.size a ≤ S192000x3.size a
  hwx0_0 : ∀ i : grid0.Coords, EltTy.bits .f32 = 32 ∨ (Rect.block (s := S192000x3) S3000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x512.size a
  hwx0_1 : ∀ i : grid0.Coords, EltTy.bits .f32 = 32 ∨ (Rect.block (s := S3x512) S3x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x512x512.size a ≤ S3x512x512.size a
  hwx0_3 : ∀ i : grid0.Coords, EltTy.bits .f32 = 32 ∨ (Rect.block (s := S3x512x512) S3x512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .f32 = 32 ∨ (Rect.block (s := S3x512) S3x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x4.size a ≤ S512x4.size a
  hwx0_5 : ∀ i : grid0.Coords, EltTy.bits .f32 = 32 ∨ (Rect.block (s := S512x4) S512x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x4.size a ≤ S192000x4.size a
  hwx0_7 : ∀ i : grid0.Coords, EltTy.bits .f32 = 32 ∨ (Rect.block (s := S192000x4) S3000x4.size (cc0_transform_7 i) (hinb0_7 i)).WholeWords (EltTy.packing .f32)

variable [Facts₀]

def dot_S3000x3_S3x512_S3000x512_1_0_0_1_n_n : DotDims S3000x3 S3x512 S3000x512 where
  lhsContracting := [1]
  rhsContracting := [0]
  lhsNonContracting := [0]
  rhsNonContracting := [1]
  lhsBatch := []
  rhsBatch := []
  wf := dot_S3000x3_S3x512_S3000x512_1_0_0_1_n_n_wf
def dot_S3000x512_S512x512_S3000x512_1_0_0_1_n_n : DotDims S3000x512 S512x512 S3000x512 where
  lhsContracting := [1]
  rhsContracting := [0]
  lhsNonContracting := [0]
  rhsNonContracting := [1]
  lhsBatch := []
  rhsBatch := []
  wf := dot_S3000x512_S512x512_S3000x512_1_0_0_1_n_n_wf
def dot_S3000x512_S512x4_S3000x4_1_0_0_1_n_n : DotDims S3000x512 S512x4 S3000x4 where
  lhsContracting := [1]
  rhsContracting := [0]
  lhsNonContracting := [0]
  rhsNonContracting := [1]
  lhsBatch := []
  rhsBatch := []
  wf := dot_S3000x512_S512x4_S3000x4_1_0_0_1_n_n_wf
def scatter_S6000x2x6000x2_S192000x2_S192000x2x2_12_02_02_1 : ScatterDims S6000x2x6000x2 S192000x2 S192000x2x2 where
  updateWindowDims := [1, 2]
  insertedWindowDims := [0, 2]
  scatterDimsToOperandDims := [0, 2]
  indexVectorDim := 1
  wf := scatter_S6000x2x6000x2_S192000x2_S192000x2x2_12_02_02_1_wf

abbrev win0_0 : Pipeline.Window sig grid0 :=
  Pipeline.Window.ofSpec (Memref.whole main_v0) S3000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S3000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S6000x32x3 : Shape := ⟨3, ![6000, 32, 3]⟩
abbrev S3x512 : Shape := ⟨2, ![3, 512]⟩
abbrev S512 : Shape := ⟨1, ![512]⟩
abbrev S3x512x512 : Shape := ⟨3, ![3, 512, 512]⟩
abbrev S512x4 : Shape := ⟨2, ![512, 4]⟩
abbrev S4 : Shape := ⟨1, ![4]⟩
abbrev S192000 : Shape := ⟨1, ![192000]⟩
abbrev S192000x3 : Shape := ⟨2, ![192000, 3]⟩
abbrev S192000x512 : Shape := ⟨2, ![192000, 512]⟩
abbrev S1x512 : Shape := ⟨2, ![1, 512]⟩
abbrev S_ : Shape := ⟨0, ![]⟩
abbrev S1x512x512 : Shape := ⟨3, ![1, 512, 512]⟩
abbrev S512x512 : Shape := ⟨2, ![512, 512]⟩
abbrev S192000x4 : Shape := ⟨2, ![192000, 4]⟩
abbrev S1x4 : Shape := ⟨2, ![1, 4]⟩
abbrev S192000x2x2 : Shape := ⟨3, ![192000, 2, 2]⟩
abbrev S6000x2x6000x2 : Shape := ⟨4, ![6000, 2, 6000, 2]⟩
abbrev S192000x1 : Shape := ⟨2, ![192000, 1]⟩
abbrev S192000x2 : Shape := ⟨2, ![192000, 2]⟩
abbrev S12000x12000 : Shape := ⟨2, ![12000, 12000]⟩

abbrev nBuf : Space → Nat
  | .hbm => 76
  | .vmem => 0
  | .smem => 0
  | _ => 0

abbrev bufTy : (tb : Table) → Fin (tcTables nBuf tb) → BufTy
  | .hbm, ⟨0, _⟩ => ⟨S6000x32x3, .f32⟩
  | .hbm, ⟨1, _⟩ => ⟨S3x512, .f32⟩
  | .hbm, ⟨2, _⟩ => ⟨S512, .f32⟩
  | .hbm, ⟨3, _⟩ => ⟨S3x512x512, .f32⟩
  | .hbm, ⟨4, _⟩ => ⟨S3x512, .f32⟩
  | .hbm, ⟨5, _⟩ => ⟨S512x4, .f32⟩
  | .hbm, ⟨6, _⟩ => ⟨S4, .f32⟩
  | .hbm, ⟨7, _⟩ => ⟨S192000, .i32⟩
  | .hbm, ⟨8, _⟩ => ⟨S192000, .i32⟩
  | .hbm, ⟨9, _⟩ => ⟨S192000x3, .f32⟩
  | .hbm, ⟨10, _⟩ => ⟨S192000x512, .f32⟩
  | .hbm, ⟨11, _⟩ => ⟨S1x512, .f32⟩
  | .hbm, ⟨12, _⟩ => ⟨S192000x512, .f32⟩
  | .hbm, ⟨13, _⟩ => ⟨S192000x512, .f32⟩
  | .hbm, ⟨14, _⟩ => ⟨S_, .f32⟩
  | .hbm, ⟨15, _⟩ => ⟨S192000x512, .f32⟩
  | .hbm, ⟨16, _⟩ => ⟨S192000x512, .f32⟩
  | .hbm, ⟨17, _⟩ => ⟨S1x512x512, .f32⟩
  | .hbm, ⟨18, _⟩ => ⟨S512x512, .f32⟩
  | .hbm, ⟨19, _⟩ => ⟨S192000x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S192000x512, .f32⟩
  | .hbm, ⟨24, _⟩ => ⟨S192000x512, .f32⟩
  | .hbm, ⟨25, _⟩ => ⟨S_, .f32⟩
  | .hbm, ⟨26, _⟩ => ⟨S192000x512, .f32⟩
  | .hbm, ⟨27, _⟩ => ⟨S192000x512, .f32⟩
  | .hbm, ⟨28, _⟩ => ⟨S1x512x512, .f32⟩
  | .hbm, ⟨29, _⟩ => ⟨S512x512, .f32⟩
  | .hbm, ⟨30, _⟩ => ⟨S192000x512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S192000x512, .f32⟩
  | .hbm, ⟨35, _⟩ => ⟨S192000x512, .f32⟩
  | .hbm, ⟨36, _⟩ => ⟨S_, .f32⟩
  | .hbm, ⟨37, _⟩ => ⟨S192000x512, .f32⟩
  | .hbm, ⟨38, _⟩ => ⟨S192000x512, .f32⟩
  | .hbm, ⟨39, _⟩ => ⟨S1x512x512, .f32⟩
  | .hbm, ⟨40, _⟩ => ⟨S512x512, .f32⟩
  | .hbm, ⟨41, _⟩ => ⟨S192000x512, .f32⟩
  | .hbm, ⟨42, _⟩ => ⟨S1x512, .f32⟩
  | .hbm, ⟨43, _⟩ => ⟨S512, .f32⟩
  | .hbm, ⟨44, _⟩ => ⟨S1x512, .f32⟩
  | .hbm, ⟨45, _⟩ => ⟨S192000x512, .f32⟩
  | .hbm, ⟨46, _⟩ => ⟨S192000x512, .f32⟩
  | .hbm, ⟨47, _⟩ => ⟨S_, .f32⟩
  | .hbm, ⟨48, _⟩ => ⟨S192000x512, .f32⟩
  | .hbm, ⟨49, _⟩ => ⟨S192000x512, .f32⟩
  | .hbm, ⟨50, _⟩ => ⟨S192000x4, .f32⟩
  | .hbm, ⟨51, _⟩ => ⟨S1x4, .f32⟩
  | .hbm, ⟨52, _⟩ => ⟨S192000x4, .f32⟩
  | .hbm, ⟨53, _⟩ => ⟨S192000x4, .f32⟩
  | .hbm, ⟨54, _⟩ => ⟨S192000x2x2, .f32⟩
  | .hbm, ⟨55, _⟩ => ⟨S_, .f32⟩
  | .hbm, ⟨56, _⟩ => ⟨S6000x2x6000x2, .f32⟩
  | .hbm, ⟨57, _⟩ => ⟨S_, .i32⟩
  | .hbm, ⟨58, _⟩ => ⟨S192000, .i32⟩
  | .hbm, ⟨59, _⟩ => ⟨S192000, .i1⟩
  | .hbm, ⟨60, _⟩ => ⟨S_, .i32⟩
  | .hbm, ⟨61, _⟩ => ⟨S192000, .i32⟩
  | .hbm, ⟨62, _⟩ => ⟨S192000, .i32⟩
  | .hbm, ⟨63, _⟩ => ⟨S192000, .i32⟩
  | .hbm, ⟨64, _⟩ => ⟨S_, .i32⟩
  | .hbm, ⟨65, _⟩ => ⟨S192000, .i32⟩
  | .hbm, ⟨66, _⟩ => ⟨S192000, .i1⟩
  | .hbm, ⟨67, _⟩ => ⟨S_, .i32⟩
  | .hbm, ⟨68, _⟩ => ⟨S192000, .i32⟩
  | .hbm, ⟨69, _⟩ => ⟨S192000, .i32⟩
  | .hbm, ⟨70, _⟩ => ⟨S192000, .i32⟩
  | .hbm, ⟨71, _⟩ => ⟨S192000x1, .i32⟩
  | .hbm, ⟨72, _⟩ => ⟨S192000x1, .i32⟩
  | .hbm, ⟨73, _⟩ => ⟨S192000x2, .i32⟩
  | .hbm, ⟨74, _⟩ => ⟨S6000x2x6000x2, .f32⟩
  | .hbm, ⟨75, _⟩ => ⟨S12000x12000, .f32⟩
  | _, _ => ⟨S6000x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_cst : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call2_cst : Ref sig .tc := ⟨.hbm, 36, rfl⟩
abbrev main_call2_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call3_cst : Ref sig .tc := ⟨.hbm, 47, rfl⟩
abbrev main_call3_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst : Ref sig .tc := ⟨.hbm, 55, rfl⟩
abbrev main_v38 : Ref sig .tc := ⟨.hbm, 56, rfl⟩
abbrev main_c : Ref sig .tc := ⟨.hbm, 57, rfl⟩
abbrev main_v39 : Ref sig .tc := ⟨.hbm, 58, rfl⟩
abbrev main_v40 : Ref sig .tc := ⟨.hbm, 59, rfl⟩
abbrev main_c_0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_1 : Ref sig .tc := ⟨.hbm, 64, rfl⟩
abbrev main_v44 : Ref sig .tc := ⟨.hbm, 65, rfl⟩
abbrev main_v45 : Ref sig .tc := ⟨.hbm, 66, rfl⟩
abbrev main_c_2 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  shapeCasts_S6000x32x3_S192000x3 : S6000x32x3.ShapeCasts S192000x3
  bcast_S512_S1x512_1 : S512.BroadcastsInDim S1x512 (![1] : Fin 1 → Fin S1x512.rank)
  bcast_S1x512_S192000x512_0_1 : S1x512.BroadcastsInDim S192000x512 (![0, 1] : Fin 2 → Fin S192000x512.rank)
  bcast_S_S192000x512 : S_.BroadcastsInDim S192000x512 (![] : Fin 0 → Fin S192000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S4_S1x4_1 : S4.BroadcastsInDim S1x4 (![1] : Fin 1 → Fin S1x4.rank)
  bcast_S1x4_S192000x4_0_1 : S1x4.BroadcastsInDim S192000x4 (![0, 1] : Fin 2 → Fin S192000x4.rank)
  shapeCasts_S192000x4_S192000x2x2 : S192000x4.ShapeCasts S192000x2x2
  bcast_S_S6000x2x6000x2 : S_.BroadcastsInDim S6000x2x6000x2 (![] : Fin 0 → Fin S6000x2x6000x2.rank)
  bcast_S_S192000 : S_.BroadcastsInDim S192000 (![] : Fin 0 → Fin S192000.rank)
  bcast_S192000_S192000x1_0 : S192000.BroadcastsInDim S192000x1 (![0] : Fin 1 → Fin S192000x1.rank)
  concatenates_S192000x1_S192000x1_S192000x2_d1 : Shape.Concatenates [S192000x1, S192000x1] S192000x2 1
  shapeCasts_S6000x2x6000x2_S12000x12000 : S6000x2x6000x2.ShapeCasts S12000x12000
  dot_S192000x3_S3x512_S192000x512_1_0_0_1_n_n_wf : DotDims.WF S192000x3 S3x512 S192000x512 [1] [0] [0] [1] [] []
  dot_S192000x512_S512x512_S192000x512_1_0_0_1_n_n_wf : DotDims.WF S192000x512 S512x512 S192000x512 [1] [0] [0] [1] [] []
  dot_S192000x512_S512x4_S192000x4_1_0_0_1_n_n_wf : DotDims.WF S192000x512 S512x4 S192000x4 [1] [0] [0] [1] [] []
  scatter_S6000x2x6000x2_S192000x2_S192000x2x2_12_02_02_1_wf : ScatterDims.WF S6000x2x6000x2 S192000x2 S192000x2x2 [1, 2] [0, 2] [0, 2] 1

variable [Facts₀]

def dot_S192000x3_S3x512_S192000x512_1_0_0_1_n_n : DotDims S192000x3 S3x512 S192000x512 where
  lhsContracting := [1]
  rhsContracting := [0]
  lhsNonContracting := [0]
  rhsNonContracting := [1]
  lhsBatch := []
  rhsBatch := []
  wf := dot_S192000x3_S3x512_S192000x512_1_0_0_1_n_n_wf
def dot_S192000x512_S512x512_S192000x512_1_0_0_1_n_n : DotDims S192000x512 S512x512 S192000x512 where
  lhsContracting := [1]
  rhsContracting := [0]
  lhsNonContracting := [0]
  rhsNonContracting := [1]
  lhsBatch := []
  rhsBatch := []
  wf := dot_S192000x512_S512x512_S192000x512_1_0_0_1_n_n_wf
def dot_S192000x512_S512x4_S192000x4_1_0_0_1_n_n : DotDims S192000x512 S512x4 S192000x4 where
  lhsContracting := [1]
  rhsContracting := [0]
  lhsNonContracting := [0]
  rhsNonContracting := [1]
  lhsBatch := []
  rhsBatch := []
  wf := dot_S192000x512_S512x4_S192000x4_1_0_0_1_n_n_wf
def scatter_S6000x2x6000x2_S192000x2_S192000x2x2_12_02_02_1 : ScatterDims S6000x2x6000x2 S192000x2 S192000x2x2 where
  updateWindowDims := [1, 2]
  insertedWindowDims := [0, 2]
  scatterDimsToOperandDims := [0, 2]
  indexVectorDim := 1
  wf := scatter_S6000x2x6000x2_S192000x2_S192000x2x2_12_02_02_1_wf

class Facts : Prop extends Facts₀ where

variable [Facts]
-- ==== Proof.Rows.lean ====
/-
  The network on ONE row. Each of the 192000 rows of the reshaped input goes, independently of every other row,
  through the same chain: a dense layer 3 → 512, three dense layers 512 → 512 (each followed by max(·, 0)), and a
  dense layer 512 → 4. A dense layer sends a row `h` to `k ↦ (∑ q, h q · W q k) + b k`. Both programs compute this
  chain row by row — one in blocks of 3000 rows, the other on all rows at once — so this file states it once, over the
  extended reals, with the weights as plain functions of their coordinates.
-/
import Idealize.ShloMosaic.PureOps.Ideal

noncomputable section

namespace Cert.Rows

open scoped BigOperators

/-- A dense layer on one row: the row times the weight matrix, plus the bias. -/
def dense {n p : Nat} (h : Fin n → EReal) (W : Fin n → Fin p → EReal) (b : Fin p → EReal) : Fin p → EReal :=
  fun k => (∑ q : Fin n, h q * W q k) + b k

/-- The rectifier on one row: the larger of each entry and zero. -/
def relu {p : Nat} (v : Fin p → EReal) : Fin p → EReal := fun k => max (v k) 0

/-- A dense layer depends on its input row only through the row's entries. -/
theorem dense_congr {n p : Nat} {h h' : Fin n → EReal} (e : ∀ q, h q = h' q) (W : Fin n → Fin p → EReal) (b : Fin p → EReal) :
    dense h W b = dense h' W b := by
  have : h = h' := funext e
  rw [this]

/-- The whole network on one row: input layer, three hidden layers, output layer. -/
def mlp (x : Fin 3 → EReal) (Win : Fin 3 → Fin 512 → EReal) (bin : Fin 512 → EReal)
    (Wh : Fin 3 → Fin 512 → Fin 512 → EReal) (bh : Fin 3 → Fin 512 → EReal)
    (Wout : Fin 512 → Fin 4 → EReal) (bout : Fin 4 → EReal) : Fin 4 → EReal :=
  dense (relu (dense (relu (dense (relu (dense (relu (dense x Win bin)) (Wh 0) (bh 0))) (Wh 1) (bh 1))) (Wh 2) (bh 2))) Wout bout

end Cert.Rows

end
-- ==== Proof.RefRows.lean ====
/-
  The reference, row by row. The reference runs the whole network on all 192000 rows at once: each matrix product is a
  sum over the contracted coordinate, each bias is a row broadcast down the rows, each hidden weight matrix is one slab
  of the stacked weights. Reading its stages at an index (e, k) and following the coordinates through the slices, casts
  and broadcasts shows that row e of every stage depends only on row e of the stage before it, by one dense layer — so
  the value at (e, j) of the last stage is the row-wise network applied to row e of the reshaped input.
-/
import proofs.«107658_j20272245637610_1_alg».proof.Proof.Gen.ReferenceIdeal.Read
import proofs.«107658_j20272245637610_1_alg».proof.Proof.Rows
import Idealize.ShloMosaic.Lib.ValueIdx
import Idealize.ShloMosaic.PureOps.Ideal.Laws

noncomputable section

namespace Cert.ReferenceIdeal.Rowwise

open Cert.ReferenceIdeal Cert.ReferenceIdeal.Read Idealize.ShloMosaic Idealize.ShloMosaic.ValueIdx Cert.Rows

variable (X0 : (⟨S6000x32x3, .f32⟩ : BufTy).Contents (Elt Ideal)) (X1 : (⟨S3x512, .f32⟩ : BufTy).Contents (Elt Ideal))
  (X2 : (⟨S512, .f32⟩ : BufTy).Contents (Elt Ideal)) (X3 : (⟨S3x512x512, .f32⟩ : BufTy).Contents (Elt Ideal))
  (X4 : (⟨S3x512, .f32⟩ : BufTy).Contents (Elt Ideal)) (X5 : (⟨S512x4, .f32⟩ : BufTy).Contents (Elt Ideal))
  (X6 : (⟨S4, .f32⟩ : BufTy).Contents (Elt Ideal))

/-- The input layer: row `e` of its output is the rectified dense layer of row `e` of the reshaped input. -/
theorem input_row (e : Fin 192000) :
    (fun k : Fin 512 => val_main_v5 (F := Ideal) X0 X1 X2 (ix2 e k))
      = relu (dense (fun q : Fin 3 => val_main_v0 (F := Ideal) X0 (ix2 e q)) (fun q k => X1 (ix2 q k)) (fun k => X2 (ix1 k))) := by
  funext k
  rw [val_main_v5_apply, val_main_v4_apply, val_main_v1_apply, val_main_v3_apply, val_main_v2_apply,
    val_main_call0_v0_apply, val_main_call0_cst_apply]
  have eb : idx_main_v2 (idx_main_v3 (ix2 e k)) = ix1 k :=
    funext fun a => Fin.ext (by match a with | ⟨0, _⟩ => rfl)
  rw [eb]
  have es : ∀ q : Fin 3,
      val_main_v0 (F := Ideal) X0 (lidx_main_v1 (ix2 e k) q) * X1 (ridx_main_v1 (ix2 e k) q)
        = val_main_v0 (F := Ideal) X0 (ix2 e q) * X1 (ix2 q k) := fun q => by
    have el : lidx_main_v1 (ix2 e k) q = ix2 e q :=
      funext fun a => Fin.ext (by match a with | ⟨0, _⟩ => rfl | ⟨1, _⟩ => rfl)
    have er : ridx_main_v1 (ix2 e k) q = ix2 q k :=
      funext fun a => Fin.ext (by match a with | ⟨0, _⟩ => rfl | ⟨1, _⟩ => rfl)
    rw [el, er]
  rw [Finset.sum_congr rfl (fun q _ => es q)]
  simp only [Ideal.maximumf_def, Ideal.addf_def, Ideal.ofBits_def, Ideal.ofBits_zero_f32]
  rfl

/-- Hidden layer 1: row `e` of its output is the rectified dense layer of row `e` of the previous activations, with
    slab 0 of the hidden weights and row 0 of the hidden biases. -/
theorem hidden1_row (e : Fin 192000) :
    (fun k : Fin 512 => val_main_v14 (F := Ideal) X0 X1 X2 X3 X4 (ix2 e k))
      = relu (dense (fun q : Fin 512 => val_main_v5 (F := Ideal) X0 X1 X2 (ix2 e q))
          (fun q k => X3 (ix3 (0 : Fin 3) q k)) (fun k => X4 (ix2 (0 : Fin 3) k))) := by
  funext k
  rw [val_main_v14_apply, val_main_v13_apply, val_main_v8_apply, val_main_v12_apply, val_main_v11_apply,
    val_main_v10_apply, val_main_v9_apply, val_main_call1_v0_apply, val_main_call1_cst_apply]
  have eb : idx_main_v9 (idx_main_v10 (idx_main_v11 (idx_main_v12 (ix2 e k)))) = ix2 (0 : Fin 3) k :=
    funext fun a => Fin.ext (by
      match a with
      | ⟨0, _⟩ => rfl
      | ⟨1, _⟩ => show k.val % 512 = k.val; omega)
  rw [eb]
  have es : ∀ q : Fin 512,
      val_main_v5 (F := Ideal) X0 X1 X2 (lidx_main_v8 (ix2 e k) q) * val_main_v7 (F := Ideal) X3 (ridx_main_v8 (ix2 e k) q)
        = val_main_v5 (F := Ideal) X0 X1 X2 (ix2 e q) * X3 (ix3 (0 : Fin 3) q k) := fun q => by
    have el : lidx_main_v8 (ix2 e k) q = ix2 e q :=
      funext fun a => Fin.ext (by match a with | ⟨0, _⟩ => rfl | ⟨1, _⟩ => rfl)
    have er : idx_main_v6 (idx_main_v7 (ridx_main_v8 (ix2 e k) q)) = ix3 (0 : Fin 3) q k :=
      funext fun a => Fin.ext (by
        match a with
        | ⟨0, _⟩ => rfl
        | ⟨1, _⟩ => show (q.val * 512 + k.val) / 512 % 512 = q.val; omega
        | ⟨2, _⟩ => show (q.val * 512 + k.val) % 512 = k.val; omega)
    rw [val_main_v7_apply, val_main_v6_apply, el, er]
  rw [Finset.sum_congr rfl (fun q _ => es q)]
  simp only [Ideal.maximumf_def, Ideal.addf_def, Ideal.ofBits_def, Ideal.ofBits_zero_f32]
  rfl

/-- Hidden layer 2: row `e` of its output is the rectified dense layer of row `e` of the previous activations, with
    slab 1 of the hidden weights and row 1 of the hidden biases. -/
theorem hidden2_row (e : Fin 192000) :
    (fun k : Fin 512 => val_main_v23 (F := Ideal) X0 X1 X2 X3 X4 (ix2 e k))
      = relu (dense (fun q : Fin 512 => val_main_v14 (F := Ideal) X0 X1 X2 X3 X4 (ix2 e q))
          (fun q k => X3 (ix3 (1 : Fin 3) q k)) (fun k => X4 (ix2 (1 : Fin 3) k))) := by
  funext k
  rw [val_main_v23_apply, val_main_v22_apply, val_main_v17_apply, val_main_v21_apply, val_main_v20_apply,
    val_main_v19_apply, val_main_v18_apply, val_main_call2_v0_apply, val_main_call2_cst_apply]
  have eb : idx_main_v18 (idx_main_v19 (idx_main_v20 (idx_main_v21 (ix2 e k)))) = ix2 (1 : Fin 3) k :=
    funext fun a => Fin.ext (by
      match a with
      | ⟨0, _⟩ => rfl
      | ⟨1, _⟩ => show k.val % 512 = k.val; omega)
  rw [eb]
  have es : ∀ q : Fin 512,
      val_main_v14 (F := Ideal) X0 X1 X2 X3 X4 (lidx_main_v17 (ix2 e k) q) * val_main_v16 (F := Ideal) X3 (ridx_main_v17 (ix2 e k) q)
        = val_main_v14 (F := Ideal) X0 X1 X2 X3 X4 (ix2 e q) * X3 (ix3 (1 : Fin 3) q k) := fun q => by
    have el : lidx_main_v17 (ix2 e k) q = ix2 e q :=
      funext fun a => Fin.ext (by match a with | ⟨0, _⟩ => rfl | ⟨1, _⟩ => rfl)
    have er : idx_main_v15 (idx_main_v16 (ridx_main_v17 (ix2 e k) q)) = ix3 (1 : Fin 3) q k :=
      funext fun a => Fin.ext (by
        match a with
        | ⟨0, _⟩ => rfl
        | ⟨1, _⟩ => show (q.val * 512 + k.val) / 512 % 512 = q.val; omega
        | ⟨2, _⟩ => show (q.val * 512 + k.val) % 512 = k.val; omega)
    rw [val_main_v16_apply, val_main_v15_apply, el, er]
  rw [Finset.sum_congr rfl (fun q _ => es q)]
  simp only [Ideal.maximumf_def, Ideal.addf_def, Ideal.ofBits_def, Ideal.ofBits_zero_f32]
  rfl

/-- Hidden layer 3: row `e` of its output is the rectified dense layer of row `e` of the previous activations, with
    slab 2 of the hidden weights and row 2 of the hidden biases. -/
theorem hidden3_row (e : Fin 192000) :
    (fun k : Fin 512 => val_main_v32 (F := Ideal) X0 X1 X2 X3 X4 (ix2 e k))
      = relu (dense (fun q : Fin 512 => val_main_v23 (F := Ideal) X0 X1 X2 X3 X4 (ix2 e q))
          (fun q k => X3 (ix3 (2 : Fin 3) q k)) (fun k => X4 (ix2 (2 : Fin 3) k))) := by
  funext k
  rw [val_main_v32_apply, val_main_v31_apply, val_main_v26_apply, val_main_v30_apply, val_main_v29_apply,
    val_main_v28_apply, val_main_v27_apply, val_main_call3_v0_apply, val_main_call3_cst_apply]
  have eb : idx_main_v27 (idx_main_v28 (idx_main_v29 (idx_main_v30 (ix2 e k)))) = ix2 (2 : Fin 3) k :=
    funext fun a => Fin.ext (by
      match a with
      | ⟨0, _⟩ => rfl
      | ⟨1, _⟩ => show k.val % 512 = k.val; omega)
  rw [eb]
  have es : ∀ q : Fin 512,
      val_main_v23 (F := Ideal) X0 X1 X2 X3 X4 (lidx_main_v26 (ix2 e k) q) * val_main_v25 (F := Ideal) X3 (ridx_main_v26 (ix2 e k) q)
        = val_main_v23 (F := Ideal) X0 X1 X2 X3 X4 (ix2 e q) * X3 (ix3 (2 : Fin 3) q k) := fun q => by
    have el : lidx_main_v26 (ix2 e k) q = ix2 e q :=
      funext fun a => Fin.ext (by match a with | ⟨0, _⟩ => rfl | ⟨1, _⟩ => rfl)
    have er : idx_main_v24 (idx_main_v25 (ridx_main_v26 (ix2 e k) q)) = ix3 (2 : Fin 3) q k :=
      funext fun a => Fin.ext (by
        match a with
        | ⟨0, _⟩ => rfl
        | ⟨1, _⟩ => show (q.val * 512 + k.val) / 512 % 512 = q.val; omega
        | ⟨2, _⟩ => show (q.val * 512 + k.val) % 512 = k.val; omega)
    rw [val_main_v25_apply, val_main_v24_apply, el, er]
  rw [Finset.sum_congr rfl (fun q _ => es q)]
  simp only [Ideal.maximumf_def, Ideal.addf_def, Ideal.ofBits_def, Ideal.ofBits_zero_f32]
  rfl

/-- The output layer: row `e` of the result is the dense layer (no rectifier) of row `e` of the last activations. -/
theorem output_row (e : Fin 192000) :
    (fun j : Fin 4 => val_main_v36 (F := Ideal) X0 X1 X2 X3 X4 X5 X6 (ix2 e j))
      = dense (fun q : Fin 512 => val_main_v32 (F := Ideal) X0 X1 X2 X3 X4 (ix2 e q)) (fun q j => X5 (ix2 q j)) (fun j => X6 (ix1 j)) := by
  funext j
  rw [val_main_v36_apply, val_main_v33_apply, val_main_v35_apply, val_main_v34_apply]
  have eb : idx_main_v34 (idx_main_v35 (ix2 e j)) = ix1 j :=
    funext fun a => Fin.ext (by match a with | ⟨0, _⟩ => rfl)
  rw [eb]
  have es : ∀ q : Fin 512,
      val_main_v32 (F := Ideal) X0 X1 X2 X3 X4 (lidx_main_v33 (ix2 e j) q) * X5 (ridx_main_v33 (ix2 e j) q)
        = val_main_v32 (F := Ideal) X0 X1 X2 X3 X4 (ix2 e q) * X5 (ix2 q j) := fun q => by
    have el : lidx_main_v33 (ix2 e j) q = ix2 e q :=
      funext fun a => Fin.ext (by match a with | ⟨0, _⟩ => rfl | ⟨1, _⟩ => rfl)
    have er : ridx_main_v33 (ix2 e j) q = ix2 q j :=
      funext fun a => Fin.ext (by match a with | ⟨0, _⟩ => rfl | ⟨1, _⟩ => rfl)
    rw [el, er]
  rw [Finset.sum_congr rfl (fun q _ => es q)]
  simp only [Ideal.addf_def]
  rfl

/-- THE REFERENCE'S VALUES: the entry (e, j) of the array the scatter consumes is the row-wise network applied to row
    `e` of the reshaped input, read at `j`. -/
theorem vals_row (e : Fin 192000) :
    (fun j : Fin 4 => val_main_v36 (F := Ideal) X0 X1 X2 X3 X4 X5 X6 (ix2 e j))
      = mlp (fun q : Fin 3 => val_main_v0 (F := Ideal) X0 (ix2 e q)) (fun q k => X1 (ix2 q k)) (fun k => X2 (ix1 k))
          (fun l q k => X3 (ix3 l q k)) (fun l k => X4 (ix2 l k)) (fun q j => X5 (ix2 q j)) (fun j => X6 (ix1 j)) := by
  rw [output_row, hidden3_row, hidden2_row, hidden1_row, input_row]
  rfl

end Cert.ReferenceIdeal.Rowwise

end
-- ==== Proof.KernelRows.lean ====
/-
  The kernel's block, row by row. At one grid point the body holds a block of 3000 rows of the reshaped input and the
  whole of every weight array, and stores one value: the network's output on those 3000 rows. Each matrix product
  accumulates into zero, so it is the plain sum over the contracted coordinate; the changes of float format are the
  identity on the extended reals; each bias is cast to one row and broadcast down the block; each hidden weight matrix is
  a one-slab load of the stacked weights with the unit axis dropped. So row r of the stored value is the row-wise network
  applied to row r of the input block.
-/
import proofs.«107658_j20272245637610_1_alg».proof.Proof.Gen.KernelIdeal.Skeleton
import proofs.«107658_j20272245637610_1_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rowwise

open Cert.KernelIdeal Cert.KernelIdeal.Gen Idealize.ShloMosaic Idealize.ShloMosaic.ValueIdx Cert.Rows

/-! ## The three matrix products at an index -/

theorem mmIn_lhs0 (i : S3000x512.Idx) (q : dot_S3000x3_S3x512_S3000x512_1_0_0_1_n_n.contr.Idx) : (dot_S3000x3_S3x512_S3000x512_1_0_0_1_n_n.lhsIdx i q 0).val = (i 0).val := by
  unfold DotDims.lhsIdx
  rw [dif_neg (show ¬(0 : Fin S3000x3.rank) ∈ dot_S3000x3_S3x512_S3000x512_1_0_0_1_n_n.lhsBatch by decide), dif_pos (show (0 : Fin S3000x3.rank) ∈ dot_S3000x3_S3x512_S3000x512_1_0_0_1_n_n.lhsNonContracting by decide)]
  rfl
theorem mmIn_rhs1 (i : S3000x512.Idx) (q : dot_S3000x3_S3x512_S3000x512_1_0_0_1_n_n.contr.Idx) : (dot_S3000x3_S3x512_S3000x512_1_0_0_1_n_n.rhsIdx i q 1).val = (i 1).val := by
  unfold DotDims.rhsIdx
  rw [dif_neg (show ¬(1 : Fin S3x512.rank) ∈ dot_S3000x3_S3x512_S3000x512_1_0_0_1_n_n.rhsBatch by decide), dif_pos (show (1 : Fin S3x512.rank) ∈ dot_S3000x3_S3x512_S3000x512_1_0_0_1_n_n.rhsNonContracting by decide)]
  rfl
/-- The product of a [3000, 3] block by a [3, 512] matrix into a zero accumulator, at (r, k): the sum over the
    contracted coordinate q of the block's (r, q) entry times the matrix's (q, k) entry. -/
theorem mmIn_apply {φ₁ φ₂ : FTy} (L : FVec Ideal S3000x3 φ₁) (R : FVec Ideal S3x512 φ₂) (r : Fin 3000) (k : Fin 512) :
    matmul dot_S3000x3_S3x512_S3000x512_1_0_0_1_n_n none L R (constant (F := Ideal) S3000x512 .f32 0x00000000#32) (ix2 r k)
      = ∑ q : Fin 3, L (ix2 r q) * R (ix2 q k) := by
  simp only [matmul]
  rw [Ideal.matmul_constant_zero_apply, ← Equiv.sum_comp (ValueIdx.contrEquiv1 dot_S3000x3_S3x512_S3000x512_1_0_0_1_n_n 3 rfl rfl).symm]
  refine Finset.sum_congr rfl fun q _ => ?_
  have hk := ValueIdx.contrEquiv1_symm_val dot_S3000x3_S3x512_S3000x512_1_0_0_1_n_n 3 rfl rfl q
  have el : dot_S3000x3_S3x512_S3000x512_1_0_0_1_n_n.lhsIdx (ix2 r k) ((ValueIdx.contrEquiv1 dot_S3000x3_S3x512_S3000x512_1_0_0_1_n_n 3 rfl rfl).symm q) = ix2 r q := funext fun a => Fin.ext (by
    match a with
    | ⟨0, _⟩ => exact mmIn_lhs0 _ _
    | ⟨1, _⟩ => exact (dot_S3000x3_S3x512_S3000x512_1_0_0_1_n_n.lhsIdx_val_of_single rfl _ _).trans hk)
  have er : dot_S3000x3_S3x512_S3000x512_1_0_0_1_n_n.rhsIdx (ix2 r k) ((ValueIdx.contrEquiv1 dot_S3000x3_S3x512_S3000x512_1_0_0_1_n_n 3 rfl rfl).symm q) = ix2 q k := funext fun a => Fin.ext (by
    match a with
    | ⟨0, _⟩ => exact (dot_S3000x3_S3x512_S3000x512_1_0_0_1_n_n.rhsIdx_val_of_single rfl _ _).trans hk
    | ⟨1, _⟩ => exact mmIn_rhs1 _ _)
  rw [el, er]

theorem mmHid_lhs0 (i : S3000x512.Idx) (q : dot_S3000x512_S512x512_S3000x512_1_0_0_1_n_n.contr.Idx) : (dot_S3000x512_S512x512_S3000x512_1_0_0_1_n_n.lhsIdx i q 0).val = (i 0).val := by
  unfold DotDims.lhsIdx
  rw [dif_neg (show ¬(0 : Fin S3000x512.rank) ∈ dot_S3000x512_S512x512_S3000x512_1_0_0_1_n_n.lhsBatch by decide), dif_pos (show (0 : Fin S3000x512.rank) ∈ dot_S3000x512_S512x512_S3000x512_1_0_0_1_n_n.lhsNonContracting by decide)]
  rfl
theorem mmHid_rhs1 (i : S3000x512.Idx) (q : dot_S3000x512_S512x512_S3000x512_1_0_0_1_n_n.contr.Idx) : (dot_S3000x512_S512x512_S3000x512_1_0_0_1_n_n.rhsIdx i q 1).val = (i 1).val := by
  unfold DotDims.rhsIdx
  rw [dif_neg (show ¬(1 : Fin S512x512.rank) ∈ dot_S3000x512_S512x512_S3000x512_1_0_0_1_n_n.rhsBatch by decide), dif_pos (show (1 : Fin S512x512.rank) ∈ dot_S3000x512_S512x512_S3000x512_1_0_0_1_n_n.rhsNonContracting by decide)]
  rfl
/-- The product of a [3000, 512] block by a [512, 512] matrix into a zero accumulator, at (r, k): the sum over the
    contracted coordinate q of the block's (r, q) entry times the matrix's (q, k) entry. -/
theorem mmHid_apply {φ₁ φ₂ : FTy} (L : FVec Ideal S3000x512 φ₁) (R : FVec Ideal S512x512 φ₂) (r : Fin 3000) (k : Fin 512) :
    matmul dot_S3000x512_S512x512_S3000x512_1_0_0_1_n_n none L R (constant (F := Ideal) S3000x512 .f32 0x00000000#32) (ix2 r k)
      = ∑ q : Fin 512, L (ix2 r q) * R (ix2 q k) := by
  simp only [matmul]
  rw [Ideal.matmul_constant_zero_apply, ← Equiv.sum_comp (ValueIdx.contrEquiv1 dot_S3000x512_S512x512_S3000x512_1_0_0_1_n_n 512 rfl rfl).symm]
  refine Finset.sum_congr rfl fun q _ => ?_
  have hk := ValueIdx.contrEquiv1_symm_val dot_S3000x512_S512x512_S3000x512_1_0_0_1_n_n 512 rfl rfl q
  have el : dot_S3000x512_S512x512_S3000x512_1_0_0_1_n_n.lhsIdx (ix2 r k) ((ValueIdx.contrEquiv1 dot_S3000x512_S512x512_S3000x512_1_0_0_1_n_n 512 rfl rfl).symm q) = ix2 r q := funext fun a => Fin.ext (by
    match a with
    | ⟨0, _⟩ => exact mmHid_lhs0 _ _
    | ⟨1, _⟩ => exact (dot_S3000x512_S512x512_S3000x512_1_0_0_1_n_n.lhsIdx_val_of_single rfl _ _).trans hk)
  have er : dot_S3000x512_S512x512_S3000x512_1_0_0_1_n_n.rhsIdx (ix2 r k) ((ValueIdx.contrEquiv1 dot_S3000x512_S512x512_S3000x512_1_0_0_1_n_n 512 rfl rfl).symm q) = ix2 q k := funext fun a => Fin.ext (by
    match a with
    | ⟨0, _⟩ => exact (dot_S3000x512_S512x512_S3000x512_1_0_0_1_n_n.rhsIdx_val_of_single rfl _ _).trans hk
    | ⟨1, _⟩ => exact mmHid_rhs1 _ _)
  rw [el, er]

theorem mmOut_lhs0 (i : S3000x4.Idx) (q : dot_S3000x512_S512x4_S3000x4_1_0_0_1_n_n.contr.Idx) : (dot_S3000x512_S512x4_S3000x4_1_0_0_1_n_n.lhsIdx i q 0).val = (i 0).val := by
  unfold DotDims.lhsIdx
  rw [dif_neg (show ¬(0 : Fin S3000x512.rank) ∈ dot_S3000x512_S512x4_S3000x4_1_0_0_1_n_n.lhsBatch by decide), dif_pos (show (0 : Fin S3000x512.rank) ∈ dot_S3000x512_S512x4_S3000x4_1_0_0_1_n_n.lhsNonContracting by decide)]
  rfl
theorem mmOut_rhs1 (i : S3000x4.Idx) (q : dot_S3000x512_S512x4_S3000x4_1_0_0_1_n_n.contr.Idx) : (dot_S3000x512_S512x4_S3000x4_1_0_0_1_n_n.rhsIdx i q 1).val = (i 1).val := by
  unfold DotDims.rhsIdx
  rw [dif_neg (show ¬(1 : Fin S512x4.rank) ∈ dot_S3000x512_S512x4_S3000x4_1_0_0_1_n_n.rhsBatch by decide), dif_pos (show (1 : Fin S512x4.rank) ∈ dot_S3000x512_S512x4_S3000x4_1_0_0_1_n_n.rhsNonContracting by decide)]
  rfl
/-- The product of a [3000, 512] block by a [512, 4] matrix into a zero accumulator, at (r, k): the sum over the
    contracted coordinate q of the block's (r, q) entry times the matrix's (q, k) entry. -/
theorem mmOut_apply {φ₁ φ₂ : FTy} (L : FVec Ideal S3000x512 φ₁) (R : FVec Ideal S512x4 φ₂) (r : Fin 3000) (k : Fin 4) :
    matmul dot_S3000x512_S512x4_S3000x4_1_0_0_1_n_n none L R (constant (F := Ideal) S3000x4 .f32 0x00000000#32) (ix2 r k)
      = ∑ q : Fin 512, L (ix2 r q) * R (ix2 q k) := by
  simp only [matmul]
  rw [Ideal.matmul_constant_zero_apply, ← Equiv.sum_comp (ValueIdx.contrEquiv1 dot_S3000x512_S512x4_S3000x4_1_0_0_1_n_n 512 rfl rfl).symm]
  refine Finset.sum_congr rfl fun q _ => ?_
  have hk := ValueIdx.contrEquiv1_symm_val dot_S3000x512_S512x4_S3000x4_1_0_0_1_n_n 512 rfl rfl q
  have el : dot_S3000x512_S512x4_S3000x4_1_0_0_1_n_n.lhsIdx (ix2 r k) ((ValueIdx.contrEquiv1 dot_S3000x512_S512x4_S3000x4_1_0_0_1_n_n 512 rfl rfl).symm q) = ix2 r q := funext fun a => Fin.ext (by
    match a with
    | ⟨0, _⟩ => exact mmOut_lhs0 _ _
    | ⟨1, _⟩ => exact (dot_S3000x512_S512x4_S3000x4_1_0_0_1_n_n.lhsIdx_val_of_single rfl _ _).trans hk)
  have er : dot_S3000x512_S512x4_S3000x4_1_0_0_1_n_n.rhsIdx (ix2 r k) ((ValueIdx.contrEquiv1 dot_S3000x512_S512x4_S3000x4_1_0_0_1_n_n 512 rfl rfl).symm q) = ix2 q k := funext fun a => Fin.ext (by
    match a with
    | ⟨0, _⟩ => exact (dot_S3000x512_S512x4_S3000x4_1_0_0_1_n_n.rhsIdx_val_of_single rfl _ _).trans hk
    | ⟨1, _⟩ => exact mmOut_rhs1 _ _)
  rw [el, er]

/-! ## The layers as the body writes them -/

/-- The body's input layer on a block: the block times the input weights plus the bias row, rectified. -/
def inputLayer (v0 : FVec Ideal S3000x3 .f32) (v3 : FVec Ideal S3x512 .f32) (v6 : FVec Ideal S512 .f32) : FVec Ideal S3000x512 .bf16 :=
  truncf .bf16 (maximumf (addf
      (matmul dot_S3000x3_S3x512_S3000x512_1_0_0_1_n_n none (truncf .bf16 (shapeCast S3000x3 v0 shapeCasts_S3000x3_S3000x3) bitsLt_bf16_f32)
        (truncf .bf16 v3 bitsLt_bf16_f32) (constant (F := Ideal) S3000x512 .f32 0x00000000#32))
      (broadcastTo S3000x512 (shapeCast S1x512 v6 shapeCasts_S512_S1x512) broadcasts_S1x512_S3000x512))
    (broadcast S3000x512 (Scalar.ofBits (F := Ideal) .f32 0x00000000#32))) bitsLt_bf16_f32

/-- A hidden layer of the body: the activations times one slab of the hidden weights plus one bias row, rectified. -/
def hiddenLayer (h : FVec Ideal S3000x512 .bf16) (W : FVec Ideal S1x512x512 .f32) (b : FVec Ideal S1x512 .f32) : FVec Ideal S3000x512 .bf16 :=
  truncf .bf16 (maximumf (addf
      (matmul dot_S3000x512_S512x512_S3000x512_1_0_0_1_n_n none h
        (truncf .bf16 (shapeCast S512x512 W shapeCasts_S1x512x512_S512x512) bitsLt_bf16_f32) (constant (F := Ideal) S3000x512 .f32 0x00000000#32))
      (broadcastTo S3000x512 (shapeCast S1x512 (shapeCast S512 b shapeCasts_S1x512_S512) shapeCasts_S512_S1x512) broadcasts_S1x512_S3000x512))
    (broadcast S3000x512 (Scalar.ofBits (F := Ideal) .f32 0x00000000#32))) bitsLt_bf16_f32

/-- The body's output layer: the activations times the output weights plus the bias row, not rectified. -/
def outputLayer (h : FVec Ideal S3000x512 .bf16) (W : FVec Ideal S512x4 .f32) (b : FVec Ideal S4 .f32) : FVec Ideal S3000x4 .f32 :=
  addf (matmul dot_S3000x512_S512x4_S3000x4_1_0_0_1_n_n none h (truncf .bf16 W bitsLt_bf16_f32) (constant (F := Ideal) S3000x4 .f32 0x00000000#32))
    (broadcastTo S3000x4 (shapeCast S1x4 b shapeCasts_S4_S1x4) broadcasts_S1x4_S3000x4)

/-- The value the body stores is the five layers composed. -/
theorem payload_eq (v0 : FVec Ideal S3000x3 .f32) (v3 : FVec Ideal S3x512 .f32) (v6 : FVec Ideal S512 .f32)
    (v13 v25 v37 : FVec Ideal S1x512x512 .f32) (v17 v29 v41 : FVec Ideal S1x512 .f32) (v49 : FVec Ideal S512x4 .f32) (v52 : FVec Ideal S4 .f32) :
    k0_pay1 (F := Ideal) (k0_pay2 (F := Ideal) v0 v3 v6 v13 v17 v25 v29) v37 v41 v49 v52
      = outputLayer (hiddenLayer (hiddenLayer (hiddenLayer (inputLayer v0 v3 v6) v13 v17) v25 v29) v37 v41) v49 v52 := rfl

/-! ## Each layer on one row -/

theorem inputLayer_row (v0 : FVec Ideal S3000x3 .f32) (v3 : FVec Ideal S3x512 .f32) (v6 : FVec Ideal S512 .f32) (r : Fin 3000) :
    (fun k : Fin 512 => inputLayer v0 v3 v6 (ix2 r k))
      = relu (dense (fun q : Fin 3 => v0 (ix2 r q)) (fun q k => v3 (ix2 q k)) (fun k => v6 (ix1 k))) := by
  funext k
  unfold inputLayer
  rw [truncf_apply, maximumf_apply, addf_apply, mmIn_apply, broadcast_apply, broadcastTo_1b_ab_apply, shapeCast_a_1a_apply,
    shapeCast_self]
  show max ((∑ q : Fin 3, v0 (ix2 r q) * v3 (ix2 q k)) + v6 (ix1 k)) (Ideal.ofBits .f32 0x00000000#32) = _
  rw [Ideal.ofBits_zero_f32]
  rfl

theorem hiddenLayer_row (h : FVec Ideal S3000x512 .bf16) (W : FVec Ideal S1x512x512 .f32) (b : FVec Ideal S1x512 .f32) (r : Fin 3000) :
    (fun k : Fin 512 => hiddenLayer h W b (ix2 r k))
      = relu (dense (fun q : Fin 512 => h (ix2 r q)) (fun q k => W (ix3 (0 : Fin 1) q k)) (fun k => b (ix2 (0 : Fin 1) k))) := by
  funext k
  unfold hiddenLayer
  rw [truncf_apply, maximumf_apply, addf_apply, mmHid_apply, broadcast_apply, broadcastTo_1b_ab_apply, shapeCast_a_1a_apply,
    shapeCast_1a_a_apply]
  have es : ∀ q : Fin 512, h (ix2 r q) * truncf .bf16 (shapeCast S512x512 W shapeCasts_S1x512x512_S512x512) bitsLt_bf16_f32 (ix2 q k)
      = h (ix2 r q) * W (ix3 (0 : Fin 1) q k) := fun q => by
    rw [truncf_apply, shapeCast_1ab_ab_apply]
  rw [Finset.sum_congr rfl (fun q _ => es q)]
  show max ((∑ q : Fin 512, h (ix2 r q) * W (ix3 (0 : Fin 1) q k)) + b (ix2 (0 : Fin 1) k)) (Ideal.ofBits .f32 0x00000000#32) = _
  rw [Ideal.ofBits_zero_f32]
  rfl

theorem outputLayer_row (h : FVec Ideal S3000x512 .bf16) (W : FVec Ideal S512x4 .f32) (b : FVec Ideal S4 .f32) (r : Fin 3000) :
    (fun j : Fin 4 => outputLayer h W b (ix2 r j))
      = dense (fun q : Fin 512 => h (ix2 r q)) (fun q j => W (ix2 q j)) (fun j => b (ix1 j)) := by
  funext j
  unfold outputLayer
  rw [addf_apply, mmOut_apply, broadcastTo_1b_ab_apply, shapeCast_a_1a_apply]
  rfl

/-- THE BLOCK'S VALUE: row `r` of what the body stores is the row-wise network applied to row `r` of the input block,
    with the weights read off the loaded arrays (each hidden slab and bias row at its unit coordinate 0). -/
theorem payload_row (v0 : FVec Ideal S3000x3 .f32) (v3 : FVec Ideal S3x512 .f32) (v6 : FVec Ideal S512 .f32)
    (v13 v25 v37 : FVec Ideal S1x512x512 .f32) (v17 v29 v41 : FVec Ideal S1x512 .f32) (v49 : FVec Ideal S512x4 .f32) (v52 : FVec Ideal S4 .f32)
    (r : Fin 3000) :
    (fun j : Fin 4 => k0_pay1 (F := Ideal) (k0_pay2 (F := Ideal) v0 v3 v6 v13 v17 v25 v29) v37 v41 v49 v52 (ix2 r j))
      = dense (relu (dense (relu (dense (relu (dense (relu (dense (fun q : Fin 3 => v0 (ix2 r q)) (fun q k => v3 (ix2 q k)) (fun k => v6 (ix1 k))))
          (fun q k => v13 (ix3 (0 : Fin 1) q k)) (fun k => v17 (ix2 (0 : Fin 1) k))))
          (fun q k => v25 (ix3 (0 : Fin 1) q k)) (fun k => v29 (ix2 (0 : Fin 1) k))))
          (fun q k => v37 (ix3 (0 : Fin 1) q k)) (fun k => v41 (ix2 (0 : Fin 1) k))))
          (fun q j => v49 (ix2 q j)) (fun j => v52 (ix1 j)) := by
  rw [payload_eq, outputLayer_row, hiddenLayer_row, hiddenLayer_row, hiddenLayer_row, inputLayer_row]

end Cert.KernelIdeal.Rowwise

end
-- ==== Proof.Blocks.lean ====
/-
  From blocks to the array. The grid has 64 points; at point t the input window holds rows 3000·t … 3000·t + 2999 of
  the reshaped input, every weight window holds its whole array, and the output window's block is rows
  3000·t … 3000·t + 2999 of the [192000, 4] result. The body's store covers the block, so what point t writes back is the
  row-wise network on those rows — the same whole-array function of the arrays, read through the block. The 64 blocks
  tile the result, so after the last write-back the result array is that function everywhere: row e is the network
  applied to row e of the reshaped input.
-/
import proofs.«107658_j20272245637610_1_alg».proof.Proof.Gen.KernelIdeal.Frame
import proofs.«107658_j20272245637610_1_alg».proof.Proof.KernelRows
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Rowwise Idealize.ShloMosaic.ValueIdx Cert.Rows

/-- The result as ONE function of the arrays the region finds: entry (e, j) is the row-wise network applied to row e of
    the [192000, 3] input, read at j. -/
def G (A0 : S192000x3.Idx → EReal) (A1 : S3x512.Idx → EReal) (A2 : S512.Idx → EReal) (A3 : S3x512x512.Idx → EReal)
    (A4 : S3x512.Idx → EReal) (A5 : S512x4.Idx → EReal) (A6 : S4.Idx → EReal) : S192000x4.Idx → EReal :=
  fun i => mlp (fun q : Fin 3 => A0 (ix2 (i 0) q)) (fun q k => A1 (ix2 q k)) (fun k => A2 (ix1 k))
    (fun l q k => A3 (ix3 l q k)) (fun l k => A4 (ix2 l k)) (fun q j => A5 (ix2 q j)) (fun j => A6 (ix1 j)) (i 1)

theorem hz1 : (![0] : Fin 1 → Nat) = fun _ => 0 := funext fun a => by fin_cases a <;> rfl
theorem hz2 : (![0, 0] : Fin 2 → Nat) = fun _ => 0 := funext fun a => by fin_cases a <;> rfl

/-- A one-slab load of the stacked hidden weights, with the unit axis at 0, reads slab `l`. -/
theorem slab_apply (x3 : FVec Ideal S3x512x512 .f32) (o : Nat)
    (inb : ∀ a, (![o, 0, 0] : Fin 3 → Nat) a + S1x512x512.size a ≤ S3x512x512.size a) (l : Fin 3) (hl : l.val = o) (q k : Fin 512) :
    View.ld (Val := Elt Ideal) (e' := .f32) x3 (Rect.unit (s := S3x512x512) ![o, 0, 0] S1x512x512.size inb) (ix3 (0 : Fin 1) q k) = x3 (ix3 l q k) := by
  show x3 _ = x3 _
  congr 1
  funext a
  apply Fin.ext
  match a with
  | ⟨0, _⟩ => show o + 1 * 0 = l.val; omega
  | ⟨1, _⟩ => show 0 + 1 * q.val = q.val; omega
  | ⟨2, _⟩ => show 0 + 1 * k.val = k.val; omega

/-- A one-row load of the stacked hidden biases, with the unit axis at 0, reads row `l`. -/
theorem biasrow_apply (x4 : FVec Ideal S3x512 .f32) (o : Nat)
    (inb : ∀ a, (![o, 0] : Fin 2 → Nat) a + S1x512.size a ≤ S3x512.size a) (l : Fin 3) (hl : l.val = o) (k : Fin 512) :
    View.ld (Val := Elt Ideal) (e' := .f32) x4 (Rect.unit (s := S3x512) ![o, 0] S1x512.size inb) (ix2 (0 : Fin 1) k) = x4 (ix2 l k) := by
  show x4 _ = x4 _
  congr 1
  funext a
  apply Fin.ext
  match a with
  | ⟨0, _⟩ => show o + 1 * 0 = l.val; omega
  | ⟨1, _⟩ => show 0 + 1 * k.val = k.val; omega

/-- WHAT THE BODY LEAVES IN THE OUTPUT BLOCK, at (r, j): the row-wise network applied to row r of the input block, with
    the weights read off the whole weight arrays. -/
theorem out_block_apply (x0 : FVec Ideal S3000x3 .f32) (x1 : FVec Ideal S3x512 .f32) (x2 : FVec Ideal S512 .f32)
    (x3 : FVec Ideal S3x512x512 .f32) (x4 : FVec Ideal S3x512 .f32) (x5 : FVec Ideal S512x4 .f32) (x6 : FVec Ideal S4 .f32)
    (r : Fin 3000) (j : Fin 4) :
    out0_7 (F := Ideal) x0 x1 x2 x3 x4 x5 x6 (ix2 r j)
      = mlp (fun q : Fin 3 => x0 (ix2 r q)) (fun q k => x1 (ix2 q k)) (fun k => x2 (ix1 k))
          (fun l q k => x3 (ix3 l q k)) (fun l k => x4 (ix2 l k)) (fun q j => x5 (ix2 q j)) (fun j => x6 (ix1 j)) j := by
  unfold out0_7
  rw [View.canon_unit_zero hz2]
  simp only [View.ld_unit_zero (S := S3000x3) hz2, View.ld_unit_zero (S := S3x512) hz2, View.ld_unit_zero (S := S512) hz1,
    View.ld_unit_zero (S := S512x4) hz2, View.ld_unit_zero (S := S4) hz1]
  have hp := congrFun (payload_row x0 x1 x2 (View.ld (Val := Elt Ideal) (e' := .f32) x3 r0_3) (View.ld (Val := Elt Ideal) (e' := .f32) x3 r0_5) (View.ld (Val := Elt Ideal) (e' := .f32) x3 r0_7) (View.ld (Val := Elt Ideal) (e' := .f32) x4 r0_4) (View.ld (Val := Elt Ideal) (e' := .f32) x4 r0_6)
    (View.ld (Val := Elt Ideal) (e' := .f32) x4 r0_8) x5 x6 r) j
  refine hp.trans ?_
  have hW0 : (fun (q k : Fin 512) => View.ld (Val := Elt Ideal) (e' := .f32) x3 r0_3 (ix3 (0 : Fin 1) q k)) = fun q k => x3 (ix3 (0 : Fin 3) q k) :=
    funext fun q => funext fun k => slab_apply x3 0 _ 0 rfl q k
  have hW1 : (fun (q k : Fin 512) => View.ld (Val := Elt Ideal) (e' := .f32) x3 r0_5 (ix3 (0 : Fin 1) q k)) = fun q k => x3 (ix3 (1 : Fin 3) q k) :=
    funext fun q => funext fun k => slab_apply x3 1 _ 1 rfl q k
  have hW2 : (fun (q k : Fin 512) => View.ld (Val := Elt Ideal) (e' := .f32) x3 r0_7 (ix3 (0 : Fin 1) q k)) = fun q k => x3 (ix3 (2 : Fin 3) q k) :=
    funext fun q => funext fun k => slab_apply x3 2 _ 2 rfl q k
  have hb0 : (fun k : Fin 512 => View.ld (Val := Elt Ideal) (e' := .f32) x4 r0_4 (ix2 (0 : Fin 1) k)) = fun k => x4 (ix2 (0 : Fin 3) k) :=
    funext fun k => biasrow_apply x4 0 _ 0 rfl k
  have hb1 : (fun k : Fin 512 => View.ld (Val := Elt Ideal) (e' := .f32) x4 r0_6 (ix2 (0 : Fin 1) k)) = fun k => x4 (ix2 (1 : Fin 3) k) :=
    funext fun k => biasrow_apply x4 1 _ 1 rfl k
  have hb2 : (fun k : Fin 512 => View.ld (Val := Elt Ideal) (e' := .f32) x4 r0_8 (ix2 (0 : Fin 1) k)) = fun k => x4 (ix2 (2 : Fin 3) k) :=
    funext fun k => biasrow_apply x4 2 _ 2 rfl k
  rw [hW0, hW1, hW2, hb0, hb1, hb2]
  rfl

/-- The same at an index of the block and the index of the array it is written to: when the input block's rows are
    rows T·3000 … of the array `A0`, the block's entry is the whole-array function `G` at row T·3000 + (the block's row). -/
theorem block_entry (x0 : FVec Ideal S3000x3 .f32) (x1 : FVec Ideal S3x512 .f32) (x2 : FVec Ideal S512 .f32)
    (x3 : FVec Ideal S3x512x512 .f32) (x4 : FVec Ideal S3x512 .f32) (x5 : FVec Ideal S512x4 .f32) (x6 : FVec Ideal S4 .f32)
    (A0 : S192000x3.Idx → EReal) (T : Nat)
    (h0 : ∀ (p : S3000x3.Idx) (k : S192000x3.Idx), (k 0).val = T * 3000 + (p 0).val → (k 1).val = (p 1).val → x0 p = A0 k)
    (y : S3000x4.Idx) (i : S192000x4.Idx) (hi0 : (i 0).val = T * 3000 + (y 0).val) (hi1 : (i 1).val = (y 1).val) :
    out0_7 (F := Ideal) x0 x1 x2 x3 x4 x5 x6 y = G A0 x1 x2 x3 x4 x5 x6 i := by
  obtain ⟨r, j, rfl⟩ : ∃ (r : Fin 3000) (j : Fin 4), y = ix2 r j := ⟨y 0, y 1, eq_ix2 y⟩
  obtain ⟨e, j', rfl⟩ : ∃ (e : Fin 192000) (j' : Fin 4), i = ix2 e j' := ⟨i 0, i 1, eq_ix2 i⟩
  obtain rfl : j' = j := Fin.ext hi1
  rw [out_block_apply]
  unfold G
  have hx : (fun q : Fin 3 => x0 (ix2 r q)) = fun q : Fin 3 => A0 (ix2 e q) :=
    funext fun q => h0 (ix2 r q) (ix2 e q) hi0 rfl
  rw [hx]

/-! ## The windows' blocks -/

variable (m : (ℓ : Loc nD τ sig) → Buf (Elt Ideal) ℓ) (ρ : Dev nD → PrngReg)

/-- The input and output windows move down the rows with the point; every weight window stays at block zero. -/
theorem idx_rows : ∀ t : Fin cfg0.N, win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, win0_0.index t (0 : Fin 2) = t.val ∧ win0_0.index t (1 : Fin 2) = 0
    ∧ win0_7.index t (0 : Fin 2) = t.val ∧ win0_7.index t (1 : Fin 2) = 0)
theorem idx_zero_1_0 : ∀ t : Fin cfg0.N, win0_1.index t (0 : Fin 2) = 0 :=
  (by decide +kernel : ∀ t : Fin grid0.N, win0_1.index t (0 : Fin 2) = 0)
theorem idx_zero_1_1 : ∀ t : Fin cfg0.N, win0_1.index t (1 : Fin 2) = 0 :=
  (by decide +kernel : ∀ t : Fin grid0.N, win0_1.index t (1 : Fin 2) = 0)
theorem idx_zero_2_0 : ∀ t : Fin cfg0.N, win0_2.index t (0 : Fin 1) = 0 :=
  (by decide +kernel : ∀ t : Fin grid0.N, win0_2.index t (0 : Fin 1) = 0)
theorem idx_zero_3_0 : ∀ t : Fin cfg0.N, win0_3.index t (0 : Fin 3) = 0 :=
  (by decide +kernel : ∀ t : Fin grid0.N, win0_3.index t (0 : Fin 3) = 0)
theorem idx_zero_3_1 : ∀ t : Fin cfg0.N, win0_3.index t (1 : Fin 3) = 0 :=
  (by decide +kernel : ∀ t : Fin grid0.N, win0_3.index t (1 : Fin 3) = 0)
theorem idx_zero_3_2 : ∀ t : Fin cfg0.N, win0_3.index t (2 : Fin 3) = 0 :=
  (by decide +kernel : ∀ t : Fin grid0.N, win0_3.index t (2 : Fin 3) = 0)
theorem idx_zero_4_0 : ∀ t : Fin cfg0.N, win0_4.index t (0 : Fin 2) = 0 :=
  (by decide +kernel : ∀ t : Fin grid0.N, win0_4.index t (0 : Fin 2) = 0)
theorem idx_zero_4_1 : ∀ t : Fin cfg0.N, win0_4.index t (1 : Fin 2) = 0 :=
  (by decide +kernel : ∀ t : Fin grid0.N, win0_4.index t (1 : Fin 2) = 0)
theorem idx_zero_5_0 : ∀ t : Fin cfg0.N, win0_5.index t (0 : Fin 2) = 0 :=
  (by decide +kernel : ∀ t : Fin grid0.N, win0_5.index t (0 : Fin 2) = 0)
theorem idx_zero_5_1 : ∀ t : Fin cfg0.N, win0_5.index t (1 : Fin 2) = 0 :=
  (by decide +kernel : ∀ t : Fin grid0.N, win0_5.index t (1 : Fin 2) = 0)
theorem idx_zero_6_0 : ∀ t : Fin cfg0.N, win0_6.index t (0 : Fin 1) = 0 :=
  (by decide +kernel : ∀ t : Fin grid0.N, win0_6.index t (0 : Fin 1) = 0)

/-- Window 1 holds the whole of its array at every point (its block index is zero on every axis). -/
theorem iblk1_eq (c : Dev nD) (t : Fin cfg0.N) : (iblk m c 1 t : S3x512.Idx → EReal) = V m c main_arg1 := by
  funext y
  unfold iblk
  rw [View.read_apply]
  show V m c main_arg1 _ = V m c main_arg1 y
  congr 1
  funext a
  apply Fin.ext
  match a with
    | ⟨0, _⟩ => show win0_1.index t (0 : Fin 2) * 3 + 1 * (y 0).val = (y 0).val; rw [idx_zero_1_0 t]; omega
    | ⟨1, _⟩ => show win0_1.index t (1 : Fin 2) * 512 + 1 * (y 1).val = (y 1).val; rw [idx_zero_1_1 t]; omega

/-- Window 2 holds the whole of its array at every point (its block index is zero on every axis). -/
theorem iblk2_eq (c : Dev nD) (t : Fin cfg0.N) : (iblk m c 2 t : S512.Idx → EReal) = V m c main_arg2 := by
  funext y
  unfold iblk
  rw [View.read_apply]
  show V m c main_arg2 _ = V m c main_arg2 y
  congr 1
  funext a
  apply Fin.ext
  match a with
    | ⟨0, _⟩ => show win0_2.index t (0 : Fin 1) * 512 + 1 * (y 0).val = (y 0).val; rw [idx_zero_2_0 t]; omega

/-- Window 3 holds the whole of its array at every point (its block index is zero on every axis). -/
theorem iblk3_eq (c : Dev nD) (t : Fin cfg0.N) : (iblk m c 3 t : S3x512x512.Idx → EReal) = V m c main_arg3 := by
  funext y
  unfold iblk
  rw [View.read_apply]
  show V m c main_arg3 _ = V m c main_arg3 y
  congr 1
  funext a
  apply Fin.ext
  match a with
    | ⟨0, _⟩ => show win0_3.index t (0 : Fin 3) * 3 + 1 * (y 0).val = (y 0).val; rw [idx_zero_3_0 t]; omega
    | ⟨1, _⟩ => show win0_3.index t (1 : Fin 3) * 512 + 1 * (y 1).val = (y 1).val; rw [idx_zero_3_1 t]; omega
    | ⟨2, _⟩ => show win0_3.index t (2 : Fin 3) * 512 + 1 * (y 2).val = (y 2).val; rw [idx_zero_3_2 t]; omega

/-- Window 4 holds the whole of its array at every point (its block index is zero on every axis). -/
theorem iblk4_eq (c : Dev nD) (t : Fin cfg0.N) : (iblk m c 4 t : S3x512.Idx → EReal) = V m c main_arg4 := by
  funext y
  unfold iblk
  rw [View.read_apply]
  show V m c main_arg4 _ = V m c main_arg4 y
  congr 1
  funext a
  apply Fin.ext
  match a with
    | ⟨0, _⟩ => show win0_4.index t (0 : Fin 2) * 3 + 1 * (y 0).val = (y 0).val; rw [idx_zero_4_0 t]; omega
    | ⟨1, _⟩ => show win0_4.index t (1 : Fin 2) * 512 + 1 * (y 1).val = (y 1).val; rw [idx_zero_4_1 t]; omega

/-- Window 5 holds the whole of its array at every point (its block index is zero on every axis). -/
theorem iblk5_eq (c : Dev nD) (t : Fin cfg0.N) : (iblk m c 5 t : S512x4.Idx → EReal) = V m c main_arg5 := by
  funext y
  unfold iblk
  rw [View.read_apply]
  show V m c main_arg5 _ = V m c main_arg5 y
  congr 1
  funext a
  apply Fin.ext
  match a with
    | ⟨0, _⟩ => show win0_5.index t (0 : Fin 2) * 512 + 1 * (y 0).val = (y 0).val; rw [idx_zero_5_0 t]; omega
    | ⟨1, _⟩ => show win0_5.index t (1 : Fin 2) * 4 + 1 * (y 1).val = (y 1).val; rw [idx_zero_5_1 t]; omega

/-- Window 6 holds the whole of its array at every point (its block index is zero on every axis). -/
theorem iblk6_eq (c : Dev nD) (t : Fin cfg0.N) : (iblk m c 6 t : S4.Idx → EReal) = V m c main_arg6 := by
  funext y
  unfold iblk
  rw [View.read_apply]
  show V m c main_arg6 _ = V m c main_arg6 y
  congr 1
  funext a
  apply Fin.ext
  match a with
    | ⟨0, _⟩ => show win0_6.index t (0 : Fin 1) * 4 + 1 * (y 0).val = (y 0).val; rw [idx_zero_6_0 t]; omega

/-- The input window's block at point t is rows 3000·t … 3000·t + 2999 of the reshaped input. -/
theorem iblk0_apply (c : Dev nD) (t : Fin cfg0.N) (p : S3000x3.Idx) (k : S192000x3.Idx)
    (hk0 : (k 0).val = t.val * 3000 + (p 0).val) (hk1 : (k 1).val = (p 1).val) :
    (iblk m c 0 t : S3000x3.Idx → EReal) p = V m c main_v0 k := by
  obtain ⟨e0, e1, -, -⟩ := idx_rows t
  unfold iblk
  rw [View.read_apply]
  show V m c main_v0 _ = V m c main_v0 k
  congr 1
  funext a
  apply Fin.ext
  match a with
  | ⟨0, _⟩ => show win0_0.index t (0 : Fin 2) * 3000 + 1 * (p 0).val = (k 0).val; rw [e0, hk0]; omega
  | ⟨1, _⟩ => show win0_0.index t (1 : Fin 2) * 3 + 1 * (p 1).val = (k 1).val; rw [e1, hk1]; omega

/-! ## The write-backs and the array -/

/-- WHAT POINT t WRITES BACK is block t of `G` of the arrays as the region finds them. -/
theorem flushed_eq (c : Dev nD) (t : Fin cfg0.N) :
    (dats m 0 c).flushed 7 t = ((cfg0.win 7).blk t).view.read (Elt Ideal)
      (G (V m c main_v0) (V m c main_arg1) (V m c main_arg2) (V m c main_arg3) (V m c main_arg4) (V m c main_arg5) (V m c main_arg6)) := by
  show (cfg0.win 7).cut (grid0.coords t) ((dats m 0 c).after 7 t) = _
  rw [after0_7, iblk1_eq, iblk2_eq, iblk3_eq, iblk4_eq, iblk5_eq, iblk6_eq]
  obtain ⟨-, -, e0, e1⟩ := idx_rows t
  funext y
  refine block_entry (iblk m c 0 t) (V m c main_arg1) (V m c main_arg2) (V m c main_arg3) (V m c main_arg4) (V m c main_arg5)
    (V m c main_arg6) (V m c main_v0) t.val (fun p k hk0 hk1 => iblk0_apply m c t p k hk0 hk1) y _ ?_ ?_
  · show win0_7.index t (0 : Fin 2) * 3000 + 1 * (y 0).val = t.val * 3000 + (y 0).val; rw [e0]; omega
  · show win0_7.index t (1 : Fin 2) * 4 + 1 * (y 1).val = (y 1).val; rw [e1]; omega

/-- An index of the result is in point t's block iff each coordinate is in the block's range on its axis. -/
theorem mem_blk (t : Fin cfg0.N) (i : S192000x4.Idx) :
    i ∈ ((cfg0.win 7).blk t).view.set ↔ ∀ a : Fin 2, win0_7.index t a * S3000x4.size a ≤ (i a).val ∧ (i a).val < win0_7.index t a * S3000x4.size a + S3000x4.size a := by
  show i ∈ ((View.whole main_v1).slice (win0_7.rect t)).set ↔ _
  rw [View.set_slice_whole, Rect.mem_set_unit]
  exact Iff.rfl

/-- The 64 blocks tile the result: row e is in the block of point e / 3000. -/
theorem cover (i : S192000x4.Idx) : ∃ t : Fin cfg0.N, (cfg0.win 7).flush t = true ∧ i ∈ ((cfg0.win 7).blk t).view.set := by
  have hi0 : (i 0).val < 192000 := (i 0).isLt
  have hi1 : (i 1).val < 4 := (i 1).isLt
  have hN : cfg0.N = 64 := N_0
  have ht : (i 0).val / 3000 < cfg0.N := by rw [hN]; omega
  refine ⟨⟨(i 0).val / 3000, ht⟩, flush0_7 _, ?_⟩
  rw [mem_blk]
  obtain ⟨-, -, e0, e1⟩ := idx_rows ⟨(i 0).val / 3000, ht⟩
  intro a
  match a with
  | ⟨0, _⟩ =>
    show win0_7.index ⟨(i 0).val / 3000, ht⟩ (0 : Fin 2) * 3000 ≤ (i 0).val ∧ (i 0).val < win0_7.index ⟨(i 0).val / 3000, ht⟩ (0 : Fin 2) * 3000 + 3000
    rw [e0]; show (i 0).val / 3000 * 3000 ≤ (i 0).val ∧ (i 0).val < (i 0).val / 3000 * 3000 + 3000; omega
  | ⟨1, _⟩ =>
    show win0_7.index ⟨(i 0).val / 3000, ht⟩ (1 : Fin 2) * 4 ≤ (i 1).val ∧ (i 1).val < win0_7.index ⟨(i 0).val / 3000, ht⟩ (1 : Fin 2) * 4 + 4
    rw [e1]; omega

/-- The host reshape before the region: the array the input window stages is the argument cast to [192000, 3]. -/
theorem V_main_v0 (c : Dev nD) :
    (V m c main_v0 : S192000x3.Idx → EReal) = shapeCast S192000x3 (m ((c : Thread nD τ).loc main_arg0)) shapeCasts_S6000x32x3_S192000x3 := by
  show StableHlo.after hostOps0 (fun b => m (c, b)) (Proc.devRef .tc main_v0) = _
  after_results
  rfl

/-- THE RESULT ARRAY after the last write-back: `G` of the reshaped input and the weight arguments as launched. -/
theorem final (c : Dev nD) : (dats m 0 c).arrAt 7 cfg0.N
    = G (shapeCast S192000x3 (m ((c : Thread nD τ).loc main_arg0)) shapeCasts_S6000x32x3_S192000x3)
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  rw [← V_main_v0 m c, ← V_main_arg1 m c, ← V_main_arg2 m c, ← V_main_arg3 m c, ← V_main_arg4 m c, ← V_main_arg5 m c, ← V_main_arg6 m c]
  exact (dats m 0 c).arrAt_eq_of_cover 7 _ (fun t _ => flushed_eq m c t) cover

end Cert.KernelIdeal.Blocks

end
-- ==== Proof.Tail.lean ====
/-
  After the region. The host takes the [192000, 4] array the region wrote, views it as [192000, 2, 2], normalizes the
  two index vectors (a negative index has 6000 added), pairs them as [192000, 2], scatter-adds the 2×2 updates into a zero
  [6000, 2, 6000, 2] array at (row, ·, col, ·), and views the result as [12000, 12000]. All of that is ONE function of the two
  index vectors and of the values array; this file names it, reads the program's result buffer as that function of what
  the region left, and re-posts the frame run with the result named and the arguments unchanged.
-/
import proofs.«107658_j20272245637610_1_alg».proof.Proof.Gen.KernelIdeal.Frame
import proofs.«107658_j20272245637610_1_alg».proof.Proof.Blocks
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Blocks

/-- Everything the host does after the region, as one function of the row indices, the column indices and the values. -/
def assemble (X7 X8 : (⟨S192000, .i32⟩ : BufTy).Contents (Elt Ideal)) (vals : (⟨S192000x4, .f32⟩ : BufTy).Contents (Elt Ideal)) :
    (⟨S12000x12000, .f32⟩ : BufTy).Contents (Elt Ideal) :=
  shapeCast S12000x12000
    (Host.scatterAdd scatter_S6000x2x6000x2_S192000x2_S192000x2x2_12_02_02_1
      (broadcastInDim S6000x2x6000x2 ![] bcast_S_S6000x2x6000x2 (constant (F := Ideal) S_ .f32 0x00000000#32))
      (concatenate S192000x2 1
        [⟨S192000x1, broadcastInDim S192000x1 ![0] bcast_S192000_S192000x1_0 (select (cmpi .slt X7 (broadcastInDim S192000 ![] bcast_S_S192000 (constantI S_ 32 0#32))) (addi X7 (broadcastInDim S192000 ![] bcast_S_S192000 (constantI S_ 32 6000#32))) X7)⟩,
         ⟨S192000x1, broadcastInDim S192000x1 ![0] bcast_S192000_S192000x1_0 (select (cmpi .slt X8 (broadcastInDim S192000 ![] bcast_S_S192000 (constantI S_ 32 0#32))) (addi X8 (broadcastInDim S192000 ![] bcast_S_S192000 (constantI S_ 32 6000#32))) X8)⟩]
        concatenates_S192000x1_S192000x1_S192000x2_d1)
      (shapeCast S192000x2x2 vals shapeCasts_S192000x4_S192000x2x2))
    shapeCasts_S6000x2x6000x2_S12000x12000

set_option maxHeartbeats 16000000 in
/-- The result buffer after the host lines, from ANY contents `W` of the buffers at the region's exit: `assemble` of the
    two index arguments and of the region's result array, each as `W` holds it. -/
theorem tail_of (W : Valuation τ sig (Elt Ideal)) :
    StableHlo.after (hostOps1 (F := Ideal)) W (Proc.devRef .tc main_v18)
      = assemble (W (Proc.devRef .tc main_arg7)) (W (Proc.devRef .tc main_arg8)) (W (Proc.devRef .tc main_v1)) := by
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

variable (m : (ℓ : Loc nD τ sig) → Buf (Elt Ideal) ℓ) (ρ : Dev nD → PrngReg)

/-- THE PROGRAM'S RESULT: `assemble` of the index arguments as launched and of the network's values, row by row, on the
    reshaped input. -/
theorem result_eq (c : Dev nD) :
    Pipeline.afterTail₀ cfgs (dats m) 0 (V0 m) [hostOps1] c main_v18
      = assemble (m ((c : Thread nD τ).loc main_arg7)) (m ((c : Thread nD τ).loc main_arg8))
          (G (shapeCast S192000x3 (m ((c : Thread nD τ).loc main_arg0)) shapeCasts_S6000x32x3_S192000x3)
            (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))) := by
  unfold Pipeline.afterTail₀
  refine (tail_of _).trans ?_
  have h7 := (Pipeline.withArrays_of_ne spec0 c (V0 m c) (fun w => (dats m 0 c).arrAt w cfg0.N) main_arg7
    (by exact (by decide : ∀ w, Pipeline.arrRef spec0 w ≠ main_arg7))).trans (V_main_arg7 m c)
  have h8 := (Pipeline.withArrays_of_ne spec0 c (V0 m c) (fun w => (dats m 0 c).arrAt w cfg0.N) main_arg8
    (by exact (by decide : ∀ w, Pipeline.arrRef spec0 w ≠ main_arg8))).trans (V_main_arg8 m c)
  have h1 := (Pipeline.withArrays_arr spec0 launch0.win.arr_inj c (V0 m c) (fun w => (dats m 0 c).arrAt w cfg0.N) 7).trans (final m c)
  exact congr (congr (congrArg assemble h7) h8) h1

/-- The frame run re-posted: the result buffer at `assemble` of the network's values, every argument unchanged. -/
theorem run : θ_run defs (onTc (τ := τ) (main (F := Ideal))) ⟨m, fun _ => 0, ρ⟩ fun r => ∀ c : Dev nD,
      r.2.mem ((c.tc : Thread nD τ).loc main_v18)
        = assemble (m ((c : Thread nD τ).loc main_arg7)) (m ((c : Thread nD τ).loc main_arg8))
            (G (shapeCast S192000x3 (m ((c : Thread nD τ).loc main_arg0)) shapeCasts_S6000x32x3_S192000x3)
              (m ((c : Thread nD τ).loc main_arg1)) (m ((c : Thread nD τ).loc main_arg2)) (m ((c : Thread nD τ).loc main_arg3))
              (m ((c : Thread nD τ).loc main_arg4)) (m ((c : Thread nD τ).loc main_arg5)) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Tail

end
-- ==== Proof.lean ====
/-
  A per-edge network against its plain reference, equal over the extended reals.

  Both programs reshape the [6000, 32, 3] input to 192000 rows of 3, send every row through the same network — a dense
  layer 3 → 512, three dense layers 512 → 512, each followed by max(·, 0), and a dense layer 512 → 4 — and then do the same
  thing with the [192000, 4] values: view them as 2×2 updates and scatter-add them into a zero [6000, 2, 6000, 2] array at
  the (row, col) pairs the two index arguments give, viewed as [12000, 12000]. They differ only in how the values are
  computed: one runs the network on 64 blocks of 3000 rows (its matrix products accumulate into zero and its changes
  of float format are the identity on the extended reals), the other on all rows at once.

  The network acts row by row (Proof/Rows.lean), so the entry (e, j) of either values array is the row-wise network on
  row e of the reshaped input: Proof/RefRows.lean reads that off the reference's stages; Proof/KernelRows.lean reads it
  off the body's stored value and Proof/Blocks.lean carries it from the 64 blocks to the whole array. A dense layer is a
  finite sum of products plus a bias, the same expression on both sides, so no law of the extended reals beyond
  rewriting a sum term by term is used and the finiteness of the inputs is never opened. Everything after the values
  array is one function of the index arguments and the values (Proof/Tail.lean), the same on both sides. The three frames
  are the generated ones (the reference's is its generated run with the result dropped); the idealization rewrote nothing.
-/
import proofs.«107658_j20272245637610_1_alg».proof.Defs
import proofs.«107658_j20272245637610_1_alg».proof.Proof.Gen.Kernel
import proofs.«107658_j20272245637610_1_alg».proof.Proof.Gen.Kernel.Skeleton
import proofs.«107658_j20272245637610_1_alg».proof.Proof.Gen.Kernel.Launch
import proofs.«107658_j20272245637610_1_alg».proof.Proof.Gen.Kernel.Points
import proofs.«107658_j20272245637610_1_alg».proof.Proof.Gen.Kernel.Frame
import proofs.«107658_j20272245637610_1_alg».proof.Proof.Gen.KernelIdeal
import proofs.«107658_j20272245637610_1_alg».proof.Proof.Gen.KernelIdeal.Skeleton
import proofs.«107658_j20272245637610_1_alg».proof.Proof.Gen.KernelIdeal.Launch
import proofs.«107658_j20272245637610_1_alg».proof.Proof.Gen.KernelIdeal.Points
import proofs.«107658_j20272245637610_1_alg».proof.Proof.Gen.KernelIdeal.Frame
import proofs.«107658_j20272245637610_1_alg».proof.Proof.Gen.ReferenceIdeal
import proofs.«107658_j20272245637610_1_alg».proof.Proof.Gen.Pre_finite_inputs
import proofs.«107658_j20272245637610_1_alg».proof.Proof.Gen.ReferenceIdeal.Run
import proofs.«107658_j20272245637610_1_alg».proof.Proof.Gen.ReferenceIdeal.Read
import proofs.«107658_j20272245637610_1_alg».proof.Proof.RefRows
import proofs.«107658_j20272245637610_1_alg».proof.Proof.Tail
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

section Bridge

open Cert.ReferenceIdeal Cert.ReferenceIdeal.Read

variable (X0 : (⟨S6000x32x3, .f32⟩ : BufTy).Contents (Elt Ideal)) (X1 : (⟨S3x512, .f32⟩ : BufTy).Contents (Elt Ideal))
  (X2 : (⟨S512, .f32⟩ : BufTy).Contents (Elt Ideal)) (X3 : (⟨S3x512x512, .f32⟩ : BufTy).Contents (Elt Ideal))
  (X4 : (⟨S3x512, .f32⟩ : BufTy).Contents (Elt Ideal)) (X5 : (⟨S512x4, .f32⟩ : BufTy).Contents (Elt Ideal))
  (X6 : (⟨S4, .f32⟩ : BufTy).Contents (Elt Ideal)) (X7 X8 : (⟨S192000, .i32⟩ : BufTy).Contents (Elt Ideal))

/-- THE VALUES AGREE: the reference's [192000, 4] array is, entry by entry, the row-wise network on the rows of the
    reshaped input — the whole-array function the kernel's blocks were shown to fill. -/
theorem values_eq :
    val_main_v36 (F := Ideal) X0 X1 X2 X3 X4 X5 X6
      = Cert.KernelIdeal.Blocks.G (shapeCast Cert.KernelIdeal.S192000x3 X0 Cert.KernelIdeal.Gen.shapeCasts_S6000x32x3_S192000x3) X1 X2 X3 X4 X5 X6 := by
  funext i
  obtain ⟨e, j, rfl⟩ : ∃ (e : Fin 192000) (j : Fin 4), i = ix2 e j := ⟨i 0, i 1, eq_ix2 i⟩
  exact (congrFun (Cert.ReferenceIdeal.Rowwise.vals_row X0 X1 X2 X3 X4 X5 X6 e) j).trans rfl

/-- The reference's result is the common tail applied to its values array: its last stages are the same reshape,
    index normalization, scatter-add and reshape. -/
theorem ref_result :
    val_main_v53 (F := Ideal) X0 X1 X2 X3 X4 X5 X6 X7 X8 = Cert.KernelIdeal.Tail.assemble X7 X8 (val_main_v36 (F := Ideal) X0 X1 X2 X3 X4 X5 X6) := rfl

end Bridge

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the common tail applied to the row-wise network's
    values: the kernel by its blocks, the reference by its stages. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  refine (Cert.ReferenceIdeal.Read.val_main_v53_eq (F := Ideal) _ _ _ _ _ _ _ _ _).trans ?_
  refine (ref_result _ _ _ _ _ _ _ _ _).trans ?_
  exact congrArg (Cert.KernelIdeal.Tail.assemble _ _) (values_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
